-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x256 : Shape := ⟨3, ![64, 512, 256]⟩
abbrev S64x512 : Shape := ⟨2, ![64, 512]⟩
abbrev S256x256 : Shape := ⟨2, ![256, 256]⟩
abbrev S_ : Shape := ⟨0, ![]⟩

class Facts : Prop where
  bcast_S_S64x512x256 : S_.BroadcastsInDim S64x512x256 (![] : Fin 0 → Fin S64x512x256.rank)
  reducesTo_S64x512x256_S_d0_1_2 : S64x512x256.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S64x512x256 .f32) (main_arg1 : FVec F S64x512x256 .f32) (main_arg2 : FVec F S64x512 .f32) (main_arg3 : FVec F S256x256 .f32) : IVec S_ 1 :=
  let main_v0 : FVec F S64x512x256 .f32 := Host.absf main_arg0
  let main_cst : FVec F S_ .f32 := constant S_ .f32 0x7F800000#32
  let main_v1 : FVec F S64x512x256 .f32 := broadcastInDim S64x512x256 ![] bcast_S_S64x512x256 main_cst
  let main_v2 : IVec S64x512x256 1 := cmpf .olt main_v0 main_v1
  let main_c : IVec S_ 1 := constantI S_ 1 1#1
  let main_v3 : IVec S_ 1 := (fun x v => Host.reduce IntOp.andi x v reducesTo_S64x512x256_S_d0_1_2 h_S_) main_v2 main_c
  let main_v4 : FVec F S64x512x256 .f32 := Host.absf main_arg1
  let main_cst_0 : FVec F S_ .f32 := constant S_ .f32 0x7F800000#32
  let main_v5 : FVec F S64x512x256 .f32 := broadcastInDim S64x512x256 ![] bcast_S_S64x512x256 main_cst_0
  let main_v6 : IVec S64x512x256 1 := cmpf .olt main_v4 main_v5
  let main_c_1 : IVec S_ 1 := constantI S_ 1 1#1
  let main_v7 : IVec S_ 1 := (fun x v => Host.reduce IntOp.andi x v reducesTo_S64x512x256_S_d0_1_2 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S64x512x256 : Shape := ⟨3, ![64, 512, 256]⟩
abbrev S64x512 : Shape := ⟨2, ![64, 512]⟩
abbrev S256x256 : Shape := ⟨2, ![256, 256]⟩
abbrev S64x1x512 : Shape := ⟨3, ![64, 1, 512]⟩
abbrev S64x512x512 : Shape := ⟨3, ![64, 512, 512]⟩
abbrev S2x512x256 : Shape := ⟨3, ![2, 512, 256]⟩
abbrev S2x1x512 : Shape := ⟨3, ![2, 1, 512]⟩
abbrev S2x512x512 : Shape := ⟨3, ![2, 512, 512]⟩
abbrev S1024x256 : Shape := ⟨2, ![1024, 256]⟩
abbrev S2x512 : Shape := ⟨2, ![2, 512]⟩
abbrev S2x512x1 : Shape := ⟨3, ![2, 512, 1]⟩

abbrev nBuf : Space → Nat
  | .hbm => 7
  | .vmem => 9
  | .smem => 0
  | _ => 0

abbrev bufTy : (tb : Table) → Fin (tcTables nBuf tb) → BufTy
  | .hbm, ⟨0, _⟩ => ⟨S64x512x256, .f32⟩
  | .hbm, ⟨1, _⟩ => ⟨S64x512x256, .f32⟩
  | .hbm, ⟨2, _⟩ => ⟨S64x512, .f32⟩
  | .hbm, ⟨3, _⟩ => ⟨S256x256, .f32⟩
  | .hbm, ⟨4, _⟩ => ⟨S64x1x512, .f32⟩
  | .hbm, ⟨5, _⟩ => ⟨S256x256, .bf16⟩
  | .hbm, ⟨6, _⟩ => ⟨S64x512x512, .f32⟩
  | .local _ .vmem, ⟨0, _⟩ => ⟨S2x512x256, .f32⟩
  | .local _ .vmem, ⟨1, _⟩ => ⟨S2x512x256, .f32⟩
  | .local _ .vmem, ⟨2, _⟩ => ⟨S2x512x256, .f32⟩
  | .local _ .vmem, ⟨3, _⟩ => ⟨S2x512x256, .f32⟩
  | .local _ .vmem, ⟨4, _⟩ => ⟨S2x1x512, .f32⟩
  | .local _ .vmem, ⟨5, _⟩ => ⟨S2x1x512, .f32⟩
  | .local _ .vmem, ⟨6, _⟩ => ⟨S256x256, .bf16⟩
  | .local _ .vmem, ⟨7, _⟩ => ⟨S2x512x512, .f32⟩
  | .local _ .vmem, ⟨8, _⟩ => ⟨S2x512x512, .f32⟩
  | _, _ => ⟨S64x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x512_S64x1x512 : S64x512.ShapeCasts S64x1x512
  bitsLt_bf16_f32 : FTy.bits .bf16 < FTy.bits .f32
  inb_S2x512x256_S2x512x256_0_0_0 : ∀ a, (![0, 0, 0] : Fin 3 → Nat) a + S2x512x256.size a ≤ S2x512x256.size a
  h_S2x512x256 : 0 < S2x512x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2x1x512_S2x1x512_0_0_0 : ∀ a, (![0, 0, 0] : Fin 3 → Nat) a + S2x1x512.size a ≤ S2x1x512.size a
  h_S2x1x512 : 0 < S2x1x512.numel
  shapeCasts_S2x1x512_S2x1x512 : S2x1x512.ShapeCasts S2x1x512
  shapeCasts_S2x512x256_S1024x256 : S2x512x256.ShapeCasts S1024x256
  shapeCasts_S1024x256_S2x512x256 : S1024x256.ShapeCasts S2x512x256
  broadcasts_S2x1x512_S2x512x512 : S2x1x512.Broadcasts S2x512x512
  reduces_S2x512x512_S2x512 : S2x512x512.Reduces [2] S2x512
  shapeCasts_S2x512_S2x512x1 : S2x512.ShapeCasts S2x512x1
  broadcasts_S2x512x1_S2x512x512 : S2x512x1.Broadcasts S2x512x512
  inb_S2x512x512_S2x512x256_0_0_0 : ∀ a, (![0, 0, 0] : Fin 3 → Nat) a + S2x512x256.size a ≤ S2x512x512.size a
  inb_S2x512x512_S2x512x256_0_0_256 : ∀ a, (![0, 0, 256] : Fin 3 → Nat) a + S2x512x256.size a ≤ S2x512x512.size a
  dot_S1024x256_S256x256_S1024x256_1_0_0_1_n_n_wf : DotDims.WF S1024x256 S256x256 S1024x256 [1] [0] [0] [1] [] []
  dot_S2x512x256_S2x512x256_S2x512x512_2_2_1_1_0_0_wf : DotDims.WF S2x512x256 S2x512x256 S2x512x512 [2] [2] [1] [1] [0] [0]
  dot_S2x512x512_S2x512x256_S2x512x256_2_1_1_2_0_0_wf : DotDims.WF S2x512x512 S2x512x256 S2x512x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x256.size a ≤ S64x512x256.size a
  hwx0_0 : ∀ i : grid0.Coords, EltTy.bits .f32 = 32 ∨ (Rect.block (s := S64x512x256) S2x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x256.size a ≤ S64x512x256.size a
  hwx0_1 : ∀ i : grid0.Coords, EltTy.bits .f32 = 32 ∨ (Rect.block (s := S64x512x256) S2x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x512.size a ≤ S64x1x512.size a
  hwx0_2 : ∀ i : grid0.Coords, EltTy.bits .f32 = 32 ∨ (Rect.block (s := S64x1x512) S2x1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x512x512.size a ≤ S64x512x512.size a
  hwx0_4 : ∀ i : grid0.Coords, EltTy.bits .f32 = 32 ∨ (Rect.block (s := S64x512x512) S2x512x512.size (cc0_transform_4 i) (hinb0_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S2x512x256_S2x512x256_S2x512x512_2_2_1_1_0_0 : DotDims S2x512x256 S2x512x256 S2x512x512 where
  lhsContracting := [2]
  rhsContracting := [2]
  lhsNonContracting := [1]
  rhsNonContracting := [1]
  lhsBatch := [0]
  rhsBatch := [0]
  wf := dot_S2x512x256_S2x512x256_S2x512x512_2_2_1_1_0_0_wf
def dot_S2x512x512_S2x512x256_S2x512x256_2_1_1_2_0_0 : DotDims S2x512x512 S2x512x256 S2x512x256 where
  lhsContracting := [2]
  rhsContracting := [1]
  lhsNonContracting := [1]
  rhsNonContracting := [2]
  lhsBatch := [0]
  rhsBatch := [0]
  wf := dot_S2x512x512_S2x512x256_S2x512x256_2_1_1_2_0_0_wf

abbrev win0_0 : Pipeline.Window sig grid0 :=
  Pipeline.Window.ofSpec (Memref.whole main_arg0) S2x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x512x256 : Shape := ⟨3, ![64, 512, 256]⟩
abbrev S64x512 : Shape := ⟨2, ![64, 512]⟩
abbrev S256x256 : Shape := ⟨2, ![256, 256]⟩
abbrev S64x512x512 : Shape := ⟨3, ![64, 512, 512]⟩
abbrev S64x512x1 : Shape := ⟨3, ![64, 512, 1]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S64x512x256, .f32⟩
  | .hbm, ⟨1, _⟩ => ⟨S64x512x256, .f32⟩
  | .hbm, ⟨2, _⟩ => ⟨S64x512, .f32⟩
  | .hbm, ⟨3, _⟩ => ⟨S256x256, .f32⟩
  | .hbm, ⟨4, _⟩ => ⟨S64x512x256, .f32⟩
  | .hbm, ⟨5, _⟩ => ⟨S64x512x512, .f32⟩
  | .hbm, ⟨6, _⟩ => ⟨S64x512x512, .f32⟩
  | .hbm, ⟨7, _⟩ => ⟨S64x512x1, .f32⟩
  | .hbm, ⟨8, _⟩ => ⟨S64x512x512, .f32⟩
  | .hbm, ⟨9, _⟩ => ⟨S64x512x512, .f32⟩
  | .hbm, ⟨10, _⟩ => ⟨S64x512x512, .f32⟩
  | .hbm, ⟨11, _⟩ => ⟨S_, .f32⟩
  | .hbm, ⟨12, _⟩ => ⟨S64x512, .f32⟩
  | .hbm, ⟨13, _⟩ => ⟨S64x512x1, .f32⟩
  | .hbm, ⟨14, _⟩ => ⟨S64x512x512, .f32⟩
  | .hbm, ⟨15, _⟩ => ⟨S64x512x512, .f32⟩
  | .hbm, ⟨16, _⟩ => ⟨S64x512x256, .f32⟩
  | .hbm, ⟨17, _⟩ => ⟨S64x512x512, .f32⟩
  | _, _ => ⟨S64x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  transposes_S64x512x512_S64x512x512_0_2_1 : S64x512x512.Transposes [0, 2, 1] S64x512x512
  reducesTo_S64x512x512_S64x512_d2 : S64x512x512.ReducesTo [2] S64x512
  h_S_ : 0 < S_.numel
  concatenates_S64x512x256_S64x512x256_S64x512x512_d2 : Shape.Concatenates [S64x512x256, S64x512x256] S64x512x512 2
  dot_S64x512x256_S256x256_S64x512x256_2_0_01_1_n_n_wf : DotDims.WF S64x512x256 S256x256 S64x512x256 [2] [0] [0, 1] [1] [] []
  dot_S64x512x256_S64x512x256_S64x512x512_2_2_1_1_0_0_wf : DotDims.WF S64x512x256 S64x512x256 S64x512x512 [2] [2] [1] [1] [0] [0]
  dot_S64x512x512_S64x512x256_S64x512x256_2_1_1_2_0_0_wf : DotDims.WF S64x512x512 S64x512x256 S64x512x256 [2] [1] [1] [2] [0] [0]

variable [Facts₀]

def dot_S64x512x256_S256x256_S64x512x256_2_0_01_1_n_n : DotDims S64x512x256 S256x256 S64x512x256 where
  lhsContracting := [2]
  rhsContracting := [0]
  lhsNonContracting := [0, 1]
  rhsNonContracting := [1]
  lhsBatch := []
  rhsBatch := []
  wf := dot_S64x512x256_S256x256_S64x512x256_2_0_01_1_n_n_wf
def dot_S64x512x256_S64x512x256_S64x512x512_2_2_1_1_0_0 : DotDims S64x512x256 S64x512x256 S64x512x512 where
  lhsContracting := [2]
  rhsContracting := [2]
  lhsNonContracting := [1]
  rhsNonContracting := [1]
  lhsBatch := [0]
  rhsBatch := [0]
  wf := dot_S64x512x256_S64x512x256_S64x512x512_2_2_1_1_0_0_wf
def dot_S64x512x512_S64x512x256_S64x512x256_2_1_1_2_0_0 : DotDims S64x512x512 S64x512x256 S64x512x256 where
  lhsContracting := [2]
  rhsContracting := [1]
  lhsNonContracting := [1]
  rhsNonContracting := [2]
  lhsBatch := [0]
  rhsBatch := [0]
  wf := dot_S64x512x512_S64x512x256_S64x512x256_2_1_1_2_0_0_wf

class Facts : Prop extends Facts₀ where

variable [Facts]
-- ==== Proof.AttentionSpec.lean ====
/-
  The function both programs compute, over the extended reals, one batch element at a time.

  For one batch element with encoder states `enc e h`, decoder states `dec d h`, mask `mask e` and
  projection matrix `wa h g`:
    proj e g    = ∑ h, enc e h · wa h g
    score d e   = ∑ h, proj e h · dec d h
    weight d e  = exp (score d e) · mask e
    total d     = ∑ e, weight d e
    prob d e    = weight d e / total d
    context d h = ∑ e, prob d e · enc e h
  and the result row `d` is the context row followed by the decoder row: column `j < 256` holds
  `context d j`, column `j ≥ 256` holds `dec d (j - 256)`. Nothing here needs the inputs finite: the two
  programs differ only in the order of the two factors of a score's products and in how the sums are laid out.
-/
import Idealize.ShloMosaic.PureOps.Ideal
import Idealize.ShloMosaic.Lib.ValueIdx

noncomputable section

namespace Cert.Attention

open Idealize.ShloMosaic Idealize.ShloMosaic.ValueIdx

/-- The projected encoder state: row `e` of `enc · wa`. -/
def proj (enc : Fin 512 → Fin 256 → EReal) (wa : Fin 256 → Fin 256 → EReal) (e : Fin 512) (g : Fin 256) : EReal :=
  ∑ h : Fin 256, enc e h * wa h g

/-- The score of decoder position `d` against encoder position `e`. -/
def score (enc dec : Fin 512 → Fin 256 → EReal) (wa : Fin 256 → Fin 256 → EReal) (d e : Fin 512) : EReal :=
  ∑ h : Fin 256, proj enc wa e h * dec d h

/-- The unnormalised attention weight: the exponential of the score, masked. -/
def weight (enc dec : Fin 512 → Fin 256 → EReal) (mask : Fin 512 → EReal) (wa : Fin 256 → Fin 256 → EReal)
    (d e : Fin 512) : EReal :=
  Ideal.exp (score enc dec wa d e) * mask e

/-- The normaliser of decoder position `d`: its weights summed over the encoder positions. -/
def total (enc dec : Fin 512 → Fin 256 → EReal) (mask : Fin 512 → EReal) (wa : Fin 256 → Fin 256 → EReal)
    (d : Fin 512) : EReal :=
  ∑ e : Fin 512, weight enc dec mask wa d e

/-- The attention probability. -/
def prob (enc dec : Fin 512 → Fin 256 → EReal) (mask : Fin 512 → EReal) (wa : Fin 256 → Fin 256 → EReal)
    (d e : Fin 512) : EReal :=
  Ideal.div (weight enc dec mask wa d e) (total enc dec mask wa d)

/-- The context vector of decoder position `d`. -/
def context (enc dec : Fin 512 → Fin 256 → EReal) (mask : Fin 512 → EReal) (wa : Fin 256 → Fin 256 → EReal)
    (d : Fin 512) (h : Fin 256) : EReal :=
  ∑ e : Fin 512, prob enc dec mask wa d e * enc e h

/-- The result row of decoder position `d`: the context vector, then the decoder state. -/
def row (enc dec : Fin 512 → Fin 256 → EReal) (mask : Fin 512 → EReal) (wa : Fin 256 → Fin 256 → EReal)
    (d : Fin 512) (j : Fin 512) : EReal :=
  if hj : j.val < 256 then context enc dec mask wa d ⟨j.val, hj⟩
  else dec d ⟨j.val - 256, by have := j.isLt; omega⟩

/-- The whole result by coordinates: batch element `b`, decoder position `d`, column `j`. -/
def resultAt (x0 x1 : (⟨3, ![64, 512, 256]⟩ : Shape).Idx → EReal) (x2 : (⟨2, ![64, 512]⟩ : Shape).Idx → EReal)
    (x3 : (⟨2, ![256, 256]⟩ : Shape).Idx → EReal) (b : Fin 64) (d j : Fin 512) : EReal :=
  row (fun e h => x0 (ix3 b e h)) (fun d' h => x1 (ix3 b d' h)) (fun e => x2 (ix2 b e)) (fun h g => x3 (ix2 h g)) d j

/-- The whole result array as one function of the four argument arrays. -/
def result (x0 x1 : (⟨3, ![64, 512, 256]⟩ : Shape).Idx → EReal) (x2 : (⟨2, ![64, 512]⟩ : Shape).Idx → EReal)
    (x3 : (⟨2, ![256, 256]⟩ : Shape).Idx → EReal) : (⟨3, ![64, 512, 512]⟩ : Shape).Idx → EReal :=
  fun i => resultAt x0 x1 x2 x3 (i 0) (i 1) (i 2)

theorem result_ix3 (x0 x1 : (⟨3, ![64, 512, 256]⟩ : Shape).Idx → EReal) (x2 : (⟨2, ![64, 512]⟩ : Shape).Idx → EReal)
    (x3 : (⟨2, ![256, 256]⟩ : Shape).Idx → EReal) (b : Fin 64) (d j : Fin 512) :
    result x0 x1 x2 x3 (ix3 b d j) = resultAt x0 x1 x2 x3 b d j := rfl

theorem row_of_lt (enc dec : Fin 512 → Fin 256 → EReal) (mask : Fin 512 → EReal) (wa : Fin 256 → Fin 256 → EReal)
    (d j : Fin 512) (hj : j.val < 256) : row enc dec mask wa d j = context enc dec mask wa d ⟨j.val, hj⟩ := by
  unfold row; rw [dif_pos hj]

theorem row_of_ge (enc dec : Fin 512 → Fin 256 → EReal) (mask : Fin 512 → EReal) (wa : Fin 256 → Fin 256 → EReal)
    (d j : Fin 512) (hj : 256 ≤ j.val) (k : Fin 256) (hk : k.val + 256 = j.val) :
    row enc dec mask wa d j = dec d k := by
  unfold row; rw [dif_neg (by omega)]
  exact congrArg (dec d) (Fin.ext (by show j.val - 256 = k.val; omega))

end Cert.Attention

end
-- ==== Proof.ReferenceValue.lean ====
/-
  The reference program's result, over the extended reals, is the attention function of the four argument arrays.

  The program is read one operation at a time at an index written by its coordinates (batch element b, encoder
  position e, decoder position d, feature h or g, result column j):
    stage 0   (b, e, g)  ↦  ∑ h, x0 (b, e, h) · x3 (h, g)                      the projected encoder state
    stage 1   (b, e, d)  ↦  ∑ h, stage 0 (b, e, h) · x1 (b, d, h)              the score of d against e
    stage 2              ↦  exp of stage 1
    stages 3, 4          :  the mask x2 (b, e), repeated along d
    stage 5   (b, e, d)  ↦  exp (score) · mask                                 the unnormalised weight
    stage 6   (b, d, e)  ↦  stage 5 (b, e, d)                                  the two last axes exchanged
    stage 7   (b, d)     ↦  0 + ∑ e, stage 6 (b, d, e)                         the normaliser
    stages 8, 9          :  the normaliser, repeated along e
    stage 10  (b, d, e)  ↦  stage 6 / stage 9                                  the probability
    stage 11  (b, d, h)  ↦  ∑ e, stage 10 (b, d, e) · x0 (b, e, h)             the context vector
    stage 12  (b, d, j)  ↦  stage 11 (b, d, j) for j < 256, x1 (b, d, j - 256) otherwise.
  Each stage lemma identifies the index the stage reads its operands at with the index of the same coordinates, and
  then is the defining equation of the corresponding function of the specification.
-/
import proofs.«154393_j47854525612133_2_alg».proof.Proof.Gen.ReferenceIdeal.Read
import proofs.«154393_j47854525612133_2_alg».proof.Proof.AttentionSpec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The indices the stages read at, by coordinates -/

theorem lidx_v0_ix (b : Fin 64) (e : Fin 512) (g k : Fin 256) : lidx_main_v0 (ix3 b e g) k = ix3 b e k :=
  funext fun a => Fin.ext (by match a with | ⟨0, _⟩ => rfl | ⟨1, _⟩ => rfl | ⟨2, _⟩ => rfl)

theorem ridx_v0_ix (b : Fin 64) (e : Fin 512) (g k : Fin 256) : ridx_main_v0 (ix3 b e g) k = ix2 k g :=
  funext fun a => Fin.ext (by match a with | ⟨0, _⟩ => rfl | ⟨1, _⟩ => rfl)

theorem lidx_v1_ix (b : Fin 64) (e d : Fin 512) (k : Fin 256) : lidx_main_v1 (ix3 b e d) k = ix3 b e k :=
  funext fun a => Fin.ext (by match a with | ⟨0, _⟩ => rfl | ⟨1, _⟩ => rfl | ⟨2, _⟩ => rfl)

theorem ridx_v1_ix (b : Fin 64) (e d : Fin 512) (k : Fin 256) : ridx_main_v1 (ix3 b e d) k = ix3 b d k :=
  funext fun a => Fin.ext (by match a with | ⟨0, _⟩ => rfl | ⟨1, _⟩ => rfl | ⟨2, _⟩ => rfl)

theorem idx_v3v4_ix (b : Fin 64) (e d : Fin 512) : idx_main_v3 (idx_main_v4 (ix3 b e d)) = ix2 b e :=
  funext fun a => Fin.ext (by match a with | ⟨0, _⟩ => rfl | ⟨1, _⟩ => rfl)

theorem idx_v6_ix (b : Fin 64) (d e : Fin 512) : idx_main_v6 (ix3 b d e) = ix3 b e d :=
  funext fun a => Fin.ext (by match a with | ⟨0, _⟩ => rfl | ⟨1, _⟩ => rfl | ⟨2, _⟩ => rfl)

theorem idx_v7_ix (b : Fin 64) (d k : Fin 512) : idx_main_v7 (ix2 b d) k = ix3 b d k :=
  funext fun a => Fin.ext (by match a with | ⟨0, _⟩ => rfl | ⟨1, _⟩ => rfl | ⟨2, _⟩ => rfl)

theorem idx_v8v9_ix (b : Fin 64) (d e : Fin 512) : idx_main_v8 (idx_main_v9 (ix3 b d e)) = ix2 b d :=
  funext fun a => Fin.ext (by match a with | ⟨0, _⟩ => rfl | ⟨1, _⟩ => rfl)

theorem lidx_v11_ix (b : Fin 64) (d : Fin 512) (h : Fin 256) (k : Fin 512) : lidx_main_v11 (ix3 b d h) k = ix3 b d k :=
  funext fun a => Fin.ext (by match a with | ⟨0, _⟩ => rfl | ⟨1, _⟩ => rfl | ⟨2, _⟩ => rfl)

theorem ridx_v11_ix (b : Fin 64) (d : Fin 512) (h : Fin 256) (k : Fin 512) : ridx_main_v11 (ix3 b d h) k = ix3 b k h :=
  funext fun a => Fin.ext (by match a with | ⟨0, _⟩ => rfl | ⟨1, _⟩ => rfl | ⟨2, _⟩ => rfl)

/-! ## The stages -/

variable (x0 x1 : (⟨S64x512x256, .f32⟩ : BufTy).Contents (Elt Ideal)) (x2 : (⟨S64x512, .f32⟩ : BufTy).Contents (Elt Ideal))
  (x3 : (⟨S256x256, .f32⟩ : BufTy).Contents (Elt Ideal))

/-- Stage 0 is the projected encoder state of batch element b. -/
theorem v0_at (b : Fin 64) (e : Fin 512) (g : Fin 256) :
    val_main_v0 (F := Ideal) x0 x3 (ix3 b e g)
      = Cert.Attention.proj (fun e h => x0 (ix3 b e h)) (fun h g => x3 (ix2 h g)) e g := by
  rw [val_main_v0_apply]
  unfold Cert.Attention.proj
  refine Finset.sum_congr rfl fun k _ => ?_
  rw [lidx_v0_ix, ridx_v0_ix]

/-- Stage 1 at (b, e, d) is the score of decoder position d against encoder position e. -/
theorem v1_at (b : Fin 64) (e d : Fin 512) :
    val_main_v1 (F := Ideal) x0 x1 x3 (ix3 b e d)
      = Cert.Attention.score (fun e h => x0 (ix3 b e h)) (fun d' h => x1 (ix3 b d' h)) (fun h g => x3 (ix2 h g)) d e := by
  rw [val_main_v1_apply]
  unfold Cert.Attention.score
  refine Finset.sum_congr rfl fun k _ => ?_
  rw [lidx_v1_ix, ridx_v1_ix, v0_at]

/-- Stage 5 at (b, e, d) is the unnormalised weight: the exponential of the score times the mask at e. -/
theorem v5_at (b : Fin 64) (e d : Fin 512) :
    val_main_v5 (F := Ideal) x0 x1 x2 x3 (ix3 b e d)
      = Cert.Attention.weight (fun e h => x0 (ix3 b e h)) (fun d' h => x1 (ix3 b d' h)) (fun e => x2 (ix2 b e))
          (fun h g => x3 (ix2 h g)) d e := by
  rw [val_main_v5_apply, val_main_v2_apply, val_main_v4_apply, val_main_v3_apply, idx_v3v4_ix, v1_at,
    Ideal.mulf_def, Ideal.hostUnary_exp_def]
  rfl

/-- Stage 6 exchanges the two position axes: at (b, d, e) it is the weight of d against e. -/
theorem v6_at (b : Fin 64) (d e : Fin 512) :
    val_main_v6 (F := Ideal) x0 x1 x2 x3 (ix3 b d e)
      = Cert.Attention.weight (fun e h => x0 (ix3 b e h)) (fun d' h => x1 (ix3 b d' h)) (fun e => x2 (ix2 b e))
          (fun h g => x3 (ix2 h g)) d e := by
  rw [val_main_v6_apply, idx_v6_ix, v5_at]

/-- Stage 7 is the normaliser: the initial value is the extended real zero, and the sum runs over the encoder
    positions. -/
theorem v7_at (b : Fin 64) (d : Fin 512) :
    val_main_v7 (F := Ideal) x0 x1 x2 x3 (ix2 b d)
      = Cert.Attention.total (fun e h => x0 (ix3 b e h)) (fun d' h => x1 (ix3 b d' h)) (fun e => x2 (ix2 b e))
          (fun h g => x3 (ix2 h g)) d := by
  rw [val_main_v7_apply, val_main_cst_apply, Ideal.ofBits_def, Ideal.ofBits_zero_f32, zero_add]
  unfold Cert.Attention.total
  refine Finset.sum_congr rfl fun k _ => ?_
  rw [idx_v7_ix, v6_at]

/-- Stages 8 and 9 repeat the normaliser of (b, d) along the encoder axis. -/
theorem v9_at (b : Fin 64) (d e : Fin 512) :
    val_main_v9 (F := Ideal) x0 x1 x2 x3 (ix3 b d e)
      = Cert.Attention.total (fun e h => x0 (ix3 b e h)) (fun d' h => x1 (ix3 b d' h)) (fun e => x2 (ix2 b e))
          (fun h g => x3 (ix2 h g)) d := by
  rw [val_main_v9_apply, val_main_v8_apply, idx_v8v9_ix, v7_at]

/-- Stage 10 is the probability: the weight over the normaliser. -/
theorem v10_at (b : Fin 64) (d e : Fin 512) :
    val_main_v10 (F := Ideal) x0 x1 x2 x3 (ix3 b d e)
      = Cert.Attention.prob (fun e h => x0 (ix3 b e h)) (fun d' h => x1 (ix3 b d' h)) (fun e => x2 (ix2 b e))
          (fun h g => x3 (ix2 h g)) d e := by
  rw [val_main_v10_apply, Ideal.hostDivf_def, v6_at, v9_at]
  rfl

/-- Stage 11 is the context vector of decoder position d. -/
theorem v11_at (b : Fin 64) (d : Fin 512) (h : Fin 256) :
    val_main_v11 (F := Ideal) x0 x1 x2 x3 (ix3 b d h)
      = Cert.Attention.context (fun e h => x0 (ix3 b e h)) (fun d' h => x1 (ix3 b d' h)) (fun e => x2 (ix2 b e))
          (fun h g => x3 (ix2 h g)) d h := by
  rw [val_main_v11_apply]
  unfold Cert.Attention.context
  refine Finset.sum_congr rfl fun k _ => ?_
  rw [lidx_v11_ix, ridx_v11_ix, v10_at]

/-! ## The result -/

/-- The reference's result is the attention function of its four arguments: a column below 256 lies in the first
    piece of the final concatenation, the context vector; a column from 256 on lies in the second, the decoder
    states, at the column less 256. -/
theorem reference_eq (x0 x1 : (⟨S64x512x256, .f32⟩ : BufTy).Contents (Elt Ideal))
    (x2 : (⟨S64x512, .f32⟩ : BufTy).Contents (Elt Ideal)) (x3 : (⟨S256x256, .f32⟩ : BufTy).Contents (Elt Ideal)) :
    Cert.ReferenceIdeal.Read.val_main_v12 (F := Ideal) x0 x1 x2 x3 = Cert.Attention.result x0 x1 x2 x3 := by
  funext i
  obtain ⟨b, d, j, rfl⟩ : ∃ (b : Fin 64) (d j : Fin 512), i = ix3 b d j := ⟨i 0, i 1, i 2, eq_ix3 i⟩
  rw [Cert.Attention.result_ix3]
  unfold Cert.Attention.resultAt val_main_v12
  by_cases hj : j.val < 256
  · rw [Cert.Attention.row_of_lt _ _ _ _ _ _ hj]
    rw [concatenate_pair_apply_left (t := S64x512x512) (s₁ := S64x512x256) (s₂ := S64x512x256) (2 : Fin 3) _ _
      concatenates_S64x512x256_S64x512x256_S64x512x512_d2 (ix3 b d j) rfl
      (ix3 b d (⟨j.val, hj⟩ : Fin 256)) (fun a => by match a with | ⟨0, _⟩ => rfl | ⟨1, _⟩ => rfl | ⟨2, _⟩ => rfl)]
    exact v11_at x0 x1 x2 x3 b d ⟨j.val, hj⟩
  · have hk : j.val - 256 < 256 := by have := j.isLt; omega
    rw [Cert.Attention.row_of_ge _ _ _ _ _ _ (by omega) (⟨j.val - 256, hk⟩ : Fin 256) (by show j.val - 256 + 256 = j.val; omega)]
    exact concatenate_pair_apply_right (t := S64x512x512) (s₁ := S64x512x256) (s₂ := S64x512x256) (2 : Fin 3) _ _
      concatenates_S64x512x256_S64x512x256_S64x512x512_d2 (ix3 b d j) rfl rfl
      (ix3 b d (⟨j.val - 256, hk⟩ : Fin 256))
      (fun a ha => by
        match a with
        | ⟨0, _⟩ => rfl
        | ⟨1, _⟩ => rfl
        | ⟨2, _⟩ => exact absurd rfl ha)
      (by show j.val - 256 + 256 = j.val; omega)

end Cert.ReferenceIdeal.RefValue

end
-- ==== Proof.LibRankThreeForms.lean ====
/-
  Layout operations on rank-3 arrays read at an index given by coordinates: a middle or trailing unit axis added,
  dropped or broadcast, the two leading axes merged into one or split again, and a slice along the last axis.
  Each is the general reading of a shape cast (equal row-major positions), a broadcast (the unit axis reads
  coordinate 0) or a slice (the offset is added) specialised to indices written by their coordinates.
-/
import Idealize.ShloMosaic.Lib.ValueIdx
import Idealize.ShloMosaic.Lib.Pipeline.Value

namespace Idealize.ShloMosaic.ValueIdx

open Idealize.ShloMosaic

variable {α : Type}

/-- Splitting the leading axis of an [a·b, c] array into [a, b, c]: entry (r, n, k) is entry (r·b + n, k). -/
theorem shapeCast_pc_abc_apply {a b c ab : ℕ} (x : (⟨2, ![ab, c]⟩ : Shape).Idx → α)
    (h : (⟨2, ![ab, c]⟩ : Shape).ShapeCasts ⟨3, ![a, b, c]⟩) (r : Fin a) (n : Fin b) (k : Fin c) (p : Fin ab)
    (hp : p.val = r.val * b + n.val) : shapeCast ⟨3, ![a, b, c]⟩ x h (ix3 r n k) = x (ix2 p k) :=
  shapeCast_apply x h _ _ (by
    rw [Shape.rowMajor_val_three, Shape.rowMajor_val_two]
    show p.val * c + k.val = (r.val * b + n.val) * c + k.val
    rw [hp])

/-- Merging the two leading axes of an [a, b, c] array into [a·b, c]: entry (r·b + n, k) is entry (r, n, k). -/
theorem shapeCast_abc_pc_apply {a b c ab : ℕ} (x : (⟨3, ![a, b, c]⟩ : Shape).Idx → α)
    (h : (⟨3, ![a, b, c]⟩ : Shape).ShapeCasts ⟨2, ![ab, c]⟩) (r : Fin a) (n : Fin b) (k : Fin c) (p : Fin ab)
    (hp : p.val = r.val * b + n.val) : shapeCast ⟨2, ![ab, c]⟩ x h (ix2 p k) = x (ix3 r n k) :=
  shapeCast_apply x h _ _ (by
    rw [Shape.rowMajor_val_three, Shape.rowMajor_val_two]
    show (r.val * b + n.val) * c + k.val = p.val * c + k.val
    rw [hp])

/-- A unit axis put in the middle of an [a, c] array: entry (r, u, k) of the [a, 1, c] array is entry (r, k). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (k : Fin c) :
    shapeCast ⟨3, ![a, 1, c]⟩ x h (ix3 r u k) = x (ix2 r k) :=
  shapeCast_apply x h _ _ (by
    have hu : u.val = 0 := by omega
    rw [Shape.rowMajor_val_three, Shape.rowMajor_val_two]
    show r.val * c + k.val = (r.val * 1 + u.val) * c + k.val
    rw [hu, Nat.mul_one, Nat.add_zero])

/-- A middle unit axis broadcast to length b: entry (r, n, k) reads entry (r, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (n : Fin b) (k : Fin c) :
    broadcastTo ⟨3, ![a, b, c]⟩ x h (ix3 r n k) = x (ix3 r (0 : Fin 1) k) := by
  refine broadcastTo_apply x h (ix3 r n k) (ix3 r (0 : Fin 1) k) fun ax => ?_
  match ax with
  | ⟨0, _⟩ =>
    show r.val = if a = 1 then 0 else r.val
    split
    · omega
    · rfl
  | ⟨1, _⟩ => rfl
  | ⟨2, _⟩ =>
    show k.val = if c = 1 then 0 else k.val
    split
    · omega
    · rfl

/-- A trailing unit axis dropped: entry (r, n) of the [a, b] array is entry (r, n, 0) of the [a, b, 1] one. -/
theorem shapeCast_ab1_ab_apply {a b : ℕ} (x : (⟨3, ![a, b, 1]⟩ : Shape).Idx → α)
    (h : (⟨3, ![a, b, 1]⟩ : Shape).ShapeCasts ⟨2, ![a, b]⟩) (r : Fin a) (n : Fin b) :
    shapeCast ⟨2, ![a, b]⟩ x h (ix2 r n) = x (ix3 r n (0 : Fin 1)) :=
  shapeCast_apply x h _ _ (by
    rw [Shape.rowMajor_val_three, Shape.rowMajor_val_two]
    show (r.val * b + n.val) * 1 + 0 = r.val * b + n.val
    rw [Nat.mul_one, Nat.add_zero])

/-- A trailing unit axis added: entry (r, n, u) of the [a, b, 1] array is entry (r, n) of the [a, b] one. -/
theorem shapeCast_ab_ab1_apply {a b : ℕ} (x : (⟨2, ![a, b]⟩ : Shape).Idx → α)
    (h : (⟨2, ![a, b]⟩ : Shape).ShapeCasts ⟨3, ![a, b, 1]⟩) (r : Fin a) (n : Fin b) (u : Fin 1) :
    shapeCast ⟨3, ![a, b, 1]⟩ x h (ix3 r n u) = x (ix2 r n) :=
  shapeCast_apply x h _ _ (by
    have hu : u.val = 0 := by omega
    rw [Shape.rowMajor_val_three, Shape.rowMajor_val_two]
    show r.val * b + n.val = (r.val * b + n.val) * 1 + u.val
    rw [hu, Nat.mul_one, Nat.add_zero])

/-- A trailing unit axis broadcast to length c: entry (r, n, k) reads entry (r, n, 0). -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (n : Fin b) (k : Fin c) :
    broadcastTo ⟨3, ![a, b, c]⟩ x h (ix3 r n k) = x (ix3 r n (0 : Fin 1)) := by
  refine broadcastTo_apply x h (ix3 r n k) (ix3 r n (0 : Fin 1)) fun ax => ?_
  match ax with
  | ⟨0, _⟩ =>
    show r.val = if a = 1 then 0 else r.val
    split
    · omega
    · rfl
  | ⟨1, _⟩ =>
    show n.val = if b = 1 then 0 else n.val
    split
    · omega
    · rfl
  | ⟨2, _⟩ => rfl

/-- A rank-3 array cut along its last axis from `o` reads, at (r, n, j), the source at (r, n, k) with k = o + j. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (r : Fin n0) (n : Fin n1) (j : Fin m) (k : Fin n2) (hk : k.val = o + j.val) :
    extractStridedSlice ⟨3, ![n0, n1, m]⟩ ![0, 0, o] X h (ix3 r n j) = X (ix3 r n k) :=
  extractStridedSlice_apply _ _ _ _ _ (fun ax => by
    match ax with
    | ⟨0, _⟩ => exact (Nat.zero_add _).symm
    | ⟨1, _⟩ => exact (Nat.zero_add _).symm
    | ⟨2, _⟩ => exact hk)

end Idealize.ShloMosaic.ValueIdx
-- ==== Proof.KernelPayload.lean ====
/-
  The kernel body's arithmetic for one grid point, read at an index: for batch element `n` of the point's two,
  decoder position `d` and feature `h`, the value it stores in the left half of the output block is the context
  vector of that batch element (AttentionSpec), computed from the point's encoder, decoder and mask blocks and
  the projection matrix.
-/
import proofs.«154393_j47854525612133_2_alg».proof.Proof.Gen.KernelIdeal.Skeleton
import proofs.«154393_j47854525612133_2_alg».proof.Proof.AttentionSpec
import proofs.«154393_j47854525612133_2_alg».proof.Proof.LibRankThreeForms
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The projection product: [1024, 256] times [256, 256], contracting the left operand's axis 1 with the right's axis 0 -/

/-- The left operand's row coordinate is the result's row coordinate. -/
theorem lhs_proj_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- The left operand's column coordinate is the contraction coordinate. -/
theorem lhs_proj_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- The right operand's row coordinate is the contraction coordinate. -/
theorem rhs_proj_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- The right operand's column coordinate is the result's column coordinate. -/
theorem rhs_proj_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The product into the zero accumulator at (p, g): the sum over k of left (p, k) times right (k, g). -/
theorem matmul_proj_apply (l : FVec Ideal S1024x256 .bf16) (r : FVec Ideal S256x256 .bf16) (p : Fin 1024) (g : Fin 256) :
    (matmul dot_S1024x256_S256x256_S1024x256_1_0_0_1_n_n none l r (constant (F := Ideal) S1024x256 .f32 0x00000000#32) : FVec Ideal S1024x256 .f32) (ix2 p g)
      = ∑ k : Fin 256, l (ix2 p k) * r (ix2 k g) := by
  refine (Ideal.matmul_constant_zero_apply dot_S1024x256_S256x256_S1024x256_1_0_0_1_n_n none l r (ix2 p g)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p g) ((contrEquiv1 dot_S1024x256_S256x256_S1024x256_1_0_0_1_n_n 256 rfl rfl).symm k) = ix2 p k := funext fun a => Fin.ext (by
    match a with
    | ⟨0, _⟩ => exact lhs_proj_0 _ _
    | ⟨1, _⟩ => exact (lhs_proj_1 _ _).trans hk)
  have er : dot_S1024x256_S256x256_S1024x256_1_0_0_1_n_n.rhsIdx (ix2 p g) ((contrEquiv1 dot_S1024x256_S256x256_S1024x256_1_0_0_1_n_n 256 rfl rfl).symm k) = ix2 k g := funext fun a => Fin.ext (by
    match a with
    | ⟨0, _⟩ => exact (rhs_proj_0 _ _).trans hk
    | ⟨1, _⟩ => exact rhs_proj_1 _ _)
  rw [el, er]

/-- The projected encoder states: the encoder block with its two leading axes merged, times the projection matrix,
    split back into the two batch elements. Entry (n, e, g) is the projection of batch element n. -/
theorem proj_apply (x0 : Vec Ideal S2x512x256 .f32) (w : FVec Ideal S256x256 .bf16) (n : Fin 2) (e : Fin 512) (g : Fin 256) :
    (shapeCast S2x512x256 (matmul dot_S1024x256_S256x256_S1024x256_1_0_0_1_n_n none
        (shapeCast S1024x256 (truncf .bf16 x0 bitsLt_bf16_f32 : FVec Ideal S2x512x256 .bf16) shapeCasts_S2x512x256_S1024x256) w
        (constant (F := Ideal) S1024x256 .f32 0x00000000#32) : FVec Ideal S1024x256 .f32) shapeCasts_S1024x256_S2x512x256 : FVec Ideal S2x512x256 .f32) (ix3 n e g)
      = Cert.Attention.proj (fun e h => x0 (ix3 n e h)) (fun h g => w (ix2 h g)) e g := by
  have hp : (⟨n.val * 512 + e.val, by have := n.isLt; have := e.isLt; omega⟩ : Fin 1024).val = n.val * 512 + e.val := rfl
  refine (shapeCast_pc_abc_apply _ shapeCasts_S1024x256_S2x512x256 n e g _ hp).trans ?_
  refine (matmul_proj_apply _ _ _ _).trans ?_
  unfold Cert.Attention.proj
  refine Finset.sum_congr rfl fun k _ => ?_
  refine congrArg (· * w (ix2 k g)) ?_
  exact (shapeCast_abc_pc_apply _ shapeCasts_S2x512x256_S1024x256 n e k _ hp).trans (truncf_apply _ _ _)

/-! ## The score product: [2, 512, 256] times [2, 512, 256] into [2, 512, 512], batch axis 0, contracting both operands' axis 2 -/

/-- The left operand's batch coordinate is the result's. -/
theorem lhs_score_0 (i : S2x512x512.Idx) (q : dot_S2x512x256_S2x512x256_S2x512x512_2_2_1_1_0_0.contr.Idx) :
    (dot_S2x512x256_S2x512x256_S2x512x512_2_2_1_1_0_0.lhsIdx i q 0).val = (i 0).val := by
  unfold DotDims.lhsIdx
  rw [dif_pos (show (0 : Fin S2x512x256.rank) ∈ dot_S2x512x256_S2x512x256_S2x512x512_2_2_1_1_0_0.lhsBatch by decide)]
  rfl
/-- The left operand's row coordinate is the result's axis-1 coordinate. -/
theorem lhs_score_1 (i : S2x512x512.Idx) (q : dot_S2x512x256_S2x512x256_S2x512x512_2_2_1_1_0_0.contr.Idx) :
    (dot_S2x512x256_S2x512x256_S2x512x512_2_2_1_1_0_0.lhsIdx i q 1).val = (i 1).val := by
  unfold DotDims.lhsIdx
  rw [dif_neg (show ¬(1 : Fin S2x512x256.rank) ∈ dot_S2x512x256_S2x512x256_S2x512x512_2_2_1_1_0_0.lhsBatch by decide), dif_pos (show (1 : Fin S2x512x256.rank) ∈ dot_S2x512x256_S2x512x256_S2x512x512_2_2_1_1_0_0.lhsNonContracting by decide)]
  rfl
/-- The left operand's last coordinate is the contraction coordinate. -/
theorem lhs_score_2 (i : S2x512x512.Idx) (q : dot_S2x512x256_S2x512x256_S2x512x512_2_2_1_1_0_0.contr.Idx) :
    (dot_S2x512x256_S2x512x256_S2x512x512_2_2_1_1_0_0.lhsIdx i q 2).val = (q ⟨0, by decide⟩).val :=
  dot_S2x512x256_S2x512x256_S2x512x512_2_2_1_1_0_0.lhsIdx_val_of_single rfl i q
/-- The right operand's batch coordinate is the result's. -/
theorem rhs_score_0 (i : S2x512x512.Idx) (q : dot_S2x512x256_S2x512x256_S2x512x512_2_2_1_1_0_0.contr.Idx) :
    (dot_S2x512x256_S2x512x256_S2x512x512_2_2_1_1_0_0.rhsIdx i q 0).val = (i 0).val := by
  unfold DotDims.rhsIdx
  rw [dif_pos (show (0 : Fin S2x512x256.rank) ∈ dot_S2x512x256_S2x512x256_S2x512x512_2_2_1_1_0_0.rhsBatch by decide)]
  rfl
/-- The right operand's row coordinate is the result's axis-2 coordinate. -/
theorem rhs_score_1 (i : S2x512x512.Idx) (q : dot_S2x512x256_S2x512x256_S2x512x512_2_2_1_1_0_0.contr.Idx) :
    (dot_S2x512x256_S2x512x256_S2x512x512_2_2_1_1_0_0.rhsIdx i q 1).val = (i 2).val := by
  unfold DotDims.rhsIdx
  rw [dif_neg (show ¬(1 : Fin S2x512x256.rank) ∈ dot_S2x512x256_S2x512x256_S2x512x512_2_2_1_1_0_0.rhsBatch by decide), dif_pos (show (1 : Fin S2x512x256.rank) ∈ dot_S2x512x256_S2x512x256_S2x512x512_2_2_1_1_0_0.rhsNonContracting by decide)]
  rfl
/-- The right operand's last coordinate is the contraction coordinate. -/
theorem rhs_score_2 (i : S2x512x512.Idx) (q : dot_S2x512x256_S2x512x256_S2x512x512_2_2_1_1_0_0.contr.Idx) :
    (dot_S2x512x256_S2x512x256_S2x512x512_2_2_1_1_0_0.rhsIdx i q 2).val = (q ⟨0, by decide⟩).val :=
  dot_S2x512x256_S2x512x256_S2x512x512_2_2_1_1_0_0.rhsIdx_val_of_single rfl i q

/-- The product into the zero accumulator at (n, d, e): the sum over k of left (n, d, k) times right (n, e, k). -/
theorem matmul_score_apply (prec : Option ContractPrecision) (l r : FVec Ideal S2x512x256 .f32) (n : Fin 2) (d e : Fin 512) :
    (matmul dot_S2x512x256_S2x512x256_S2x512x512_2_2_1_1_0_0 prec l r (constant (F := Ideal) S2x512x512 .f32 0x00000000#32) : FVec Ideal S2x512x512 .f32) (ix3 n d e)
      = ∑ k : Fin 256, l (ix3 n d k) * r (ix3 n e k) := by
  refine (Ideal.matmul_constant_zero_apply dot_S2x512x256_S2x512x256_S2x512x512_2_2_1_1_0_0 prec l r (ix3 n d e)).trans ?_
  rw [← Equiv.sum_comp (contrEquiv1 dot_S2x512x256_S2x512x256_S2x512x512_2_2_1_1_0_0 256 rfl rfl).symm]
  refine Finset.sum_congr rfl fun k _ => ?_
  have hk := contrEquiv1_symm_val dot_S2x512x256_S2x512x256_S2x512x512_2_2_1_1_0_0 256 rfl rfl k
  have el : dot_S2x512x256_S2x512x256_S2x512x512_2_2_1_1_0_0.lhsIdx (ix3 n d e) ((contrEquiv1 dot_S2x512x256_S2x512x256_S2x512x512_2_2_1_1_0_0 256 rfl rfl).symm k) = ix3 n d k := funext fun a => Fin.ext (by
    match a with
    | ⟨0, _⟩ => exact lhs_score_0 _ _
    | ⟨1, _⟩ => exact lhs_score_1 _ _
    | ⟨2, _⟩ => exact (lhs_score_2 _ _).trans hk)
  have er : dot_S2x512x256_S2x512x256_S2x512x512_2_2_1_1_0_0.rhsIdx (ix3 n d e) ((contrEquiv1 dot_S2x512x256_S2x512x256_S2x512x512_2_2_1_1_0_0 256 rfl rfl).symm k) = ix3 n e k := funext fun a => Fin.ext (by
    match a with
    | ⟨0, _⟩ => exact rhs_score_0 _ _
    | ⟨1, _⟩ => exact rhs_score_1 _ _
    | ⟨2, _⟩ => exact (rhs_score_2 _ _).trans hk)
  rw [el, er]

/-! ## The context product: [2, 512, 512] times [2, 512, 256] into [2, 512, 256], batch axis 0, contracting the left operand's axis 2 with the right's axis 1 -/

/-- The left operand's batch coordinate is the result's. -/
theorem lhs_ctx_0 (i : S2x512x256.Idx) (q : dot_S2x512x512_S2x512x256_S2x512x256_2_1_1_2_0_0.contr.Idx) :
    (dot_S2x512x512_S2x512x256_S2x512x256_2_1_1_2_0_0.lhsIdx i q 0).val = (i 0).val := by
  unfold DotDims.lhsIdx
  rw [dif_pos (show (0 : Fin S2x512x512.rank) ∈ dot_S2x512x512_S2x512x256_S2x512x256_2_1_1_2_0_0.lhsBatch by decide)]
  rfl
/-- The left operand's row coordinate is the result's axis-1 coordinate. -/
theorem lhs_ctx_1 (i : S2x512x256.Idx) (q : dot_S2x512x512_S2x512x256_S2x512x256_2_1_1_2_0_0.contr.Idx) :
    (dot_S2x512x512_S2x512x256_S2x512x256_2_1_1_2_0_0.lhsIdx i q 1).val = (i 1).val := by
  unfold DotDims.lhsIdx
  rw [dif_neg (show ¬(1 : Fin S2x512x512.rank) ∈ dot_S2x512x512_S2x512x256_S2x512x256_2_1_1_2_0_0.lhsBatch by decide), dif_pos (show (1 : Fin S2x512x512.rank) ∈ dot_S2x512x512_S2x512x256_S2x512x256_2_1_1_2_0_0.lhsNonContracting by decide)]
  rfl
/-- The left operand's last coordinate is the contraction coordinate. -/
theorem lhs_ctx_2 (i : S2x512x256.Idx) (q : dot_S2x512x512_S2x512x256_S2x512x256_2_1_1_2_0_0.contr.Idx) :
    (dot_S2x512x512_S2x512x256_S2x512x256_2_1_1_2_0_0.lhsIdx i q 2).val = (q ⟨0, by decide⟩).val :=
  dot_S2x512x512_S2x512x256_S2x512x256_2_1_1_2_0_0.lhsIdx_val_of_single rfl i q
/-- The right operand's batch coordinate is the result's. -/
theorem rhs_ctx_0 (i : S2x512x256.Idx) (q : dot_S2x512x512_S2x512x256_S2x512x256_2_1_1_2_0_0.contr.Idx) :
    (dot_S2x512x512_S2x512x256_S2x512x256_2_1_1_2_0_0.rhsIdx i q 0).val = (i 0).val := by
  unfold DotDims.rhsIdx
  rw [dif_pos (show (0 : Fin S2x512x256.rank) ∈ dot_S2x512x512_S2x512x256_S2x512x256_2_1_1_2_0_0.rhsBatch by decide)]
  rfl
/-- The right operand's row coordinate is the contraction coordinate. -/
theorem rhs_ctx_1 (i : S2x512x256.Idx) (q : dot_S2x512x512_S2x512x256_S2x512x256_2_1_1_2_0_0.contr.Idx) :
    (dot_S2x512x512_S2x512x256_S2x512x256_2_1_1_2_0_0.rhsIdx i q 1).val = (q ⟨0, by decide⟩).val :=
  dot_S2x512x512_S2x512x256_S2x512x256_2_1_1_2_0_0.rhsIdx_val_of_single rfl i q
/-- The right operand's last coordinate is the result's axis-2 coordinate. -/
theorem rhs_ctx_2 (i : S2x512x256.Idx) (q : dot_S2x512x512_S2x512x256_S2x512x256_2_1_1_2_0_0.contr.Idx) :
    (dot_S2x512x512_S2x512x256_S2x512x256_2_1_1_2_0_0.rhsIdx i q 2).val = (i 2).val := by
  unfold DotDims.rhsIdx
  rw [dif_neg (show ¬(2 : Fin S2x512x256.rank) ∈ dot_S2x512x512_S2x512x256_S2x512x256_2_1_1_2_0_0.rhsBatch by decide), dif_pos (show (2 : Fin S2x512x256.rank) ∈ dot_S2x512x512_S2x512x256_S2x512x256_2_1_1_2_0_0.rhsNonContracting by decide)]
  rfl

/-- The product into the zero accumulator at (n, d, h): the sum over e of left (n, d, e) times right (n, e, h). -/
theorem matmul_ctx_apply (l : FVec Ideal S2x512x512 .bf16) (r : FVec Ideal S2x512x256 .bf16) (n : Fin 2) (d : Fin 512) (h : Fin 256) :
    (matmul dot_S2x512x512_S2x512x256_S2x512x256_2_1_1_2_0_0 none l r (constant (F := Ideal) S2x512x256 .f32 0x00000000#32) : FVec Ideal S2x512x256 .f32) (ix3 n d h)
      = ∑ e : Fin 512, l (ix3 n d e) * r (ix3 n e h) := by
  refine (Ideal.matmul_constant_zero_apply dot_S2x512x512_S2x512x256_S2x512x256_2_1_1_2_0_0 none l r (ix3 n d h)).trans ?_
  rw [← Equiv.sum_comp (contrEquiv1 dot_S2x512x512_S2x512x256_S2x512x256_2_1_1_2_0_0 512 rfl rfl).symm]
  refine Finset.sum_congr rfl fun k _ => ?_
  have hk := contrEquiv1_symm_val dot_S2x512x512_S2x512x256_S2x512x256_2_1_1_2_0_0 512 rfl rfl k
  have el : dot_S2x512x512_S2x512x256_S2x512x256_2_1_1_2_0_0.lhsIdx (ix3 n d h) ((contrEquiv1 dot_S2x512x512_S2x512x256_S2x512x256_2_1_1_2_0_0 512 rfl rfl).symm k) = ix3 n d k := funext fun a => Fin.ext (by
    match a with
    | ⟨0, _⟩ => exact lhs_ctx_0 _ _
    | ⟨1, _⟩ => exact lhs_ctx_1 _ _
    | ⟨2, _⟩ => exact (lhs_ctx_2 _ _).trans hk)
  have er : dot_S2x512x512_S2x512x256_S2x512x256_2_1_1_2_0_0.rhsIdx (ix3 n d h) ((contrEquiv1 dot_S2x512x512_S2x512x256_S2x512x256_2_1_1_2_0_0 512 rfl rfl).symm k) = ix3 n k h := funext fun a => Fin.ext (by
    match a with
    | ⟨0, _⟩ => exact rhs_ctx_0 _ _
    | ⟨1, _⟩ => exact (rhs_ctx_1 _ _).trans hk
    | ⟨2, _⟩ => exact rhs_ctx_2 _ _)
  rw [el, er]

/-! ## The stages between the products -/

/-- The scores: the decoder block times the projected encoder states. The product's factors are the other way
    round than in the specification's score; multiplication of extended reals is commutative. -/
theorem score_stage (prec : Option ContractPrecision) (x1 P : FVec Ideal S2x512x256 .f32) (enc : Fin 512 → Fin 256 → EReal)
    (wa : Fin 256 → Fin 256 → EReal) (n : Fin 2) (hP : ∀ e g, P (ix3 n e g) = Cert.Attention.proj enc wa e g) (d e : Fin 512) :
    (matmul dot_S2x512x256_S2x512x256_S2x512x512_2_2_1_1_0_0 prec x1 P (constant (F := Ideal) S2x512x512 .f32 0x00000000#32) : FVec Ideal S2x512x512 .f32) (ix3 n d e)
      = Cert.Attention.score enc (fun d' h' => x1 (ix3 n d' h')) wa d e := by
  refine (matmul_score_apply prec x1 P n d e).trans ?_
  unfold Cert.Attention.score
  refine Finset.sum_congr rfl fun k _ => ?_
  rw [hP e k]
  exact mul_comm _ _

/-- The weights: the exponential of the score times the mask, whose block has a unit middle axis that is broadcast
    over the decoder positions. -/
theorem weight_stage (S : FVec Ideal S2x512x512 .f32) (m : FVec Ideal S2x1x512 .f32) (enc dec : Fin 512 → Fin 256 → EReal)
    (wa : Fin 256 → Fin 256 → EReal) (n : Fin 2) (hS : ∀ d e, S (ix3 n d e) = Cert.Attention.score enc dec wa d e) (d e : Fin 512) :
    (mulf (exp S) (broadcastTo S2x512x512 m broadcasts_S2x1x512_S2x512x512) : FVec Ideal S2x512x512 .f32) (ix3 n d e)
      = Cert.Attention.weight enc dec (fun e => m (ix3 n (0 : Fin 1) e)) wa d e := by
  unfold Cert.Attention.weight
  refine (mulf_apply _ _ _).trans ?_
  rw [broadcastTo_a1c_abc_apply m broadcasts_S2x1x512_S2x512x512 n d e, ← hS d e]
  rfl

/-- The index of the [2, 512, 512] array over (n, d) with e put on the summed axis is (n, d, e). -/
theorem lift_total (n : Fin 2) (d e : Fin 512) :
    (reduces_S2x512x512_S2x512 : S2x512x512.Reduces [2] S2x512).lift (ix2 n d) e = ix3 n d e :=
  funext fun a => Fin.ext (by
    match a with
    | ⟨0, _⟩ => rfl
    | ⟨1, _⟩ => rfl
    | ⟨2, _⟩ => rfl)

/-- The sum over the last axis at (n, d): the sum over e of the entries (n, d, e). -/
theorem total_stage (W : FVec Ideal S2x512x512 .f32) (T : Fin 512 → Fin 512 → EReal) (n : Fin 2)
    (hW : ∀ d e, W (ix3 n d e) = T d e) (d : Fin 512) :
    (multiReduction (F := Ideal) .add [2] S2x512 W 0x00000000#32 reduces_S2x512x512_S2x512 (.inl rfl) rfl : FVec Ideal S2x512 .f32) (ix2 n d)
      = ∑ e : Fin 512, T d e := by
  refine (Ideal.multiReduction_add_single W _ reduces_S2x512x512_S2x512 (.inl rfl) rfl (ix2 n d)).trans ?_
  refine Finset.sum_congr rfl fun e _ => ?_
  rw [lift_total n d e]
  exact hW d e

/-- The probabilities: each weight divided by its row's total, the totals given a trailing unit axis and broadcast
    along it. -/
theorem prob_stage (W : FVec Ideal S2x512x512 .f32) (enc dec : Fin 512 → Fin 256 → EReal) (mask : Fin 512 → EReal)
    (wa : Fin 256 → Fin 256 → EReal) (n : Fin 2) (hW : ∀ d e, W (ix3 n d e) = Cert.Attention.weight enc dec mask wa d e)
    (d e : Fin 512) :
    (divf W (broadcastTo S2x512x512 (shapeCast S2x512x1
        (multiReduction (F := Ideal) .add [2] S2x512 W 0x00000000#32 reduces_S2x512x512_S2x512 (.inl rfl) rfl : FVec Ideal S2x512 .f32)
        shapeCasts_S2x512_S2x512x1) broadcasts_S2x512x1_S2x512x512) : FVec Ideal S2x512x512 .f32) (ix3 n d e)
      = Cert.Attention.prob enc dec mask wa d e := by
  unfold Cert.Attention.prob Cert.Attention.total
  refine (divf_apply _ _ _).trans ?_
  rw [broadcastTo_ab1_abc_apply _ broadcasts_S2x512x1_S2x512x512 n d e,
    shapeCast_ab_ab1_apply _ shapeCasts_S2x512_S2x512x1 n d (0 : Fin 1), total_stage W _ n hW d, hW d e]

/-- The context vectors: the probabilities times the encoder block. -/
theorem ctx_stage (Pr : FVec Ideal S2x512x512 .f32) (x0 : FVec Ideal S2x512x256 .f32) (dec : Fin 512 → Fin 256 → EReal)
    (mask : Fin 512 → EReal) (wa : Fin 256 → Fin 256 → EReal) (n : Fin 2)
    (hPr : ∀ d e, Pr (ix3 n d e) = Cert.Attention.prob (fun e h => x0 (ix3 n e h)) dec mask wa d e) (d : Fin 512) (h : Fin 256) :
    (matmul dot_S2x512x512_S2x512x256_S2x512x256_2_1_1_2_0_0 none (truncf .bf16 Pr bitsLt_bf16_f32 : FVec Ideal S2x512x512 .bf16)
        (truncf .bf16 x0 bitsLt_bf16_f32 : FVec Ideal S2x512x256 .bf16) (constant (F := Ideal) S2x512x256 .f32 0x00000000#32) : FVec Ideal S2x512x256 .f32) (ix3 n d h)
      = Cert.Attention.context (fun e h => x0 (ix3 n e h)) dec mask wa d h := by
  refine (matmul_ctx_apply _ _ n d h).trans ?_
  unfold Cert.Attention.context
  refine Finset.sum_congr rfl fun e _ => ?_
  show Pr (ix3 n d e) * x0 (ix3 n e h) = _
  rw [hPr d e]

/-- The stored payload at (n, d, h) is the context vector of the point's batch element `n`. -/
theorem payload_apply (x0 x1 : Vec Ideal S2x512x256 .f32) (x2 : Vec Ideal S256x256 .bf16) (x4 : Vec Ideal S2x1x512 .f32)
    (n : Fin 2) (d : Fin 512) (h : Fin 256) :
    k0_pay1 (F := Ideal) x0 x1 x2 x4 (ix3 n d h)
      = Cert.Attention.context (fun e h' => x0 (ix3 n e h')) (fun d' h' => x1 (ix3 n d' h'))
          (fun e => x4 (ix3 n (0 : Fin 1) e)) (fun h' g => x2 (ix2 h' g)) d h := by
  unfold k0_pay1
  rw [shapeCast_self x2, shapeCast_self x4]
  refine ctx_stage _ x0 _ _ _ n (fun d e => ?_) d h
  refine prob_stage _ _ _ _ _ n (fun d e => ?_) d e
  refine weight_stage _ x4 _ _ _ n (fun d e => ?_) d e
  exact score_stage _ x1 _ _ _ n (fun e g => proj_apply x0 x2 n e g) d e

end Cert.KernelIdeal.Hand

end
-- ==== Proof.KernelArray.lean ====
/-
  From the blocks to the array: the kernel's result array after the run is `Cert.Attention.result` of the four
  argument arrays.

  Grid point `t` (of 32) handles batch elements `2t` and `2t + 1`: its encoder, decoder and output blocks are
  rows `2t, 2t + 1` of the leading axis, its mask block the same rows of the mask seen as a [64, 1, 512] array
  (the host reshapes it before the call), and the projection matrix (converted in format by the host, which
  changes nothing over the extended reals) is read whole at every point. The body stores the context vectors in
  columns `0 … 255` of its output block and the decoder block in columns `256 … 511`; the 32 output blocks tile
  the result array.
-/
import proofs.«154393_j47854525612133_2_alg».proof.Proof.Gen.KernelIdeal.Value
import proofs.«154393_j47854525612133_2_alg».proof.Proof.KernelPayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx

variable (m : (ℓ : Loc nD τ sig) → Buf (Elt Ideal) ℓ) (ρ : Dev nD → PrngReg)

/-! ## The arrays the region finds -/

/-- The mask window's array is the mask argument reshaped to [64, 1, 512]. -/
theorem V_mask (c : Dev nD) : (V m c main_v0 : S64x1x512.Idx → EReal)
    = shapeCast S64x1x512 (m ((c : Thread nD τ).loc main_arg2)) shapeCasts_S64x512_S64x1x512 := by
  dsimp only [Gen.V, Gen.hostOps0]; after_results; rfl

/-- The projection window's array is the projection argument, its format changed. -/
theorem V_wa (c : Dev nD) : (V m c main_v1 : S256x256.Idx → EReal)
    = (truncf (F := Ideal) .bf16 (m ((c : Thread nD τ).loc main_arg3) : FVec Ideal S256x256 .f32) bitsLt_bf16_f32 :
        FVec Ideal S256x256 .bf16) := by
  dsimp only [Gen.V, Gen.hostOps0]; after_results

/-- The printed index maps over the grid: the batch-blocked windows are at block `t` of the leading axis and block 0
    of the others; the projection matrix is always block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## The body's output block, entry by entry -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- Of two stores, an entry of the earlier one's rectangle that the later one does not touch keeps the earlier
    store's value. -/
theorem canon_pair_earlier {Val : EltTy → Type} [∀ e, Nonempty (Val e)] {S : Shape} {e : EltTy} (r₁ r₂ : Rect S)
    (w₁ : r₁.shape.Idx → Val e) (w₂ : r₂.shape.Idx → Val e) (x : r₂.shape.Idx) (h : r₂.emb x ∉ r₁.set) :
    View.canon [(⟨r₁, w₁⟩ : View.Piece Val S e), ⟨r₂, w₂⟩] (r₂.emb x) = w₂ x := by
  rw [View.canon_cons_of_not_mem _ _ h, View.canon_cons_emb]

/-- Of two stores, an entry of the later one's rectangle holds the later store's value. -/
theorem canon_pair_later {Val : EltTy → Type} [∀ e, Nonempty (Val e)] {S : Shape} {e : EltTy} (r₁ r₂ : Rect S)
    (w₁ : r₁.shape.Idx → Val e) (w₂ : r₂.shape.Idx → Val e) (x : r₁.shape.Idx) :
    View.canon [(⟨r₁, w₁⟩ : View.Piece Val S e), ⟨r₂, w₂⟩] (r₁.emb x) = w₁ x :=
  View.canon_cons_emb r₁ w₁ _ x

/-- Entry (n, d, j) of the output block the body leaves: row `d` of batch element `n` of the point — the context
    vector in the columns below 256 (the first store), the decoder state in the others (the second store). -/
theorem out_apply (x0 x1 : Vec Ideal S2x512x256 .f32) (x2 : Vec Ideal S2x1x512 .f32) (x3 : Vec Ideal S256x256 .bf16)
    (n : Fin 2) (d j : Fin 512) :
    out0_4 x0 x1 x2 x3 (ix3 n d j)
      = Cert.Attention.row (fun e h => x0 (ix3 n e h)) (fun d' h => x1 (ix3 n d' h))
          (fun e => x2 (ix3 n (0 : Fin 1) e)) (fun h g => x3 (ix2 h g)) d j := by
  unfold out0_4
  simp only [View.ld_unit_zero (S := S2x512x256) zeros3, View.ld_unit_zero (S := S256x256) zeros2,
    View.ld_unit_zero (S := S2x1x512) zeros3]
  by_cases hj : j.val < 256
  · rw [Cert.Attention.row_of_lt _ _ _ _ _ _ hj]
    have he : (r0_3 : Rect S2x512x512).emb (ix3 n d (⟨j.val, hj⟩ : Fin 256)) = ix3 n d j :=
      funext fun a => Fin.ext (by
        match a with
        | ⟨0, _⟩ => show 0 + 1 * n.val = n.val; omega
        | ⟨1, _⟩ => show 0 + 1 * d.val = d.val; omega
        | ⟨2, _⟩ => show 0 + 1 * j.val = j.val; omega)
    have hnot : (r0_3 : Rect S2x512x512).emb (ix3 n d (⟨j.val, hj⟩ : Fin 256)) ∉ (r0_4 : Rect S2x512x512).set := by
      rw [he, Rect.mem_set_unit]
      intro hmem
      have h2 : 256 ≤ j.val := (hmem 2).1
      omega
    have key := canon_pair_earlier (Val := Elt Ideal) r0_4 r0_3 x1 (k0_pay1 (F := Ideal) x0 x1 x3 x2)
      (ix3 n d (⟨j.val, hj⟩ : Fin 256)) hnot
    rw [he] at key
    exact key.trans (payload_apply x0 x1 x3 x2 n d ⟨j.val, hj⟩)
  · have hk : j.val - 256 < 256 := by have := j.isLt; omega
    have he : (r0_4 : Rect S2x512x512).emb (ix3 n d (⟨j.val - 256, hk⟩ : Fin 256)) = ix3 n d j :=
      funext fun a => Fin.ext (by
        match a with
        | ⟨0, _⟩ => show 0 + 1 * n.val = n.val; omega
        | ⟨1, _⟩ => show 0 + 1 * d.val = d.val; omega
        | ⟨2, _⟩ => show 256 + 1 * (j.val - 256) = j.val; omega)
    have key := canon_pair_later (Val := Elt Ideal) r0_4 r0_3 x1 (k0_pay1 (F := Ideal) x0 x1 x3 x2)
      (ix3 n d (⟨j.val - 256, hk⟩ : Fin 256))
    rw [he] at key
    exact key.trans (Cert.Attention.row_of_ge (fun e h => x0 (ix3 n e h)) (fun d' h => x1 (ix3 n d' h))
      (fun e => x2 (ix3 n (0 : Fin 1) e)) (fun h g => x3 (ix2 h g)) d j (by omega) ⟨j.val - 256, hk⟩
      (by show j.val - 256 + 256 = j.val; omega)).symm

/-! ## The input blocks as rows of the argument arrays -/

/-- Entry (n, e, h) of the encoder block at point `t` is the encoder argument at (2t + n, e, h). -/
theorem enc_block (c : Dev nD) (t : Fin cfg0.N) (n : Fin 2) (e : Fin 512) (h : Fin 256) (b : Fin 64)
    (hb : b.val = 2 * t.val + n.val) :
    (iblk m c 0 t : Vec Ideal S2x512x256 .f32) (ix3 n e h)
      = (m ((c : Thread nD τ).loc main_arg0) : S64x512x256.Idx → EReal) (ix3 b e h) := by
  obtain ⟨e0, e1, e2, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 2 + 1 * n.val = b.val; omega
  | ⟨1, _⟩ => show win0_0.index t (1 : Fin 3) * 512 + 1 * e.val = e.val; omega
  | ⟨2, _⟩ => show win0_0.index t (2 : Fin 3) * 256 + 1 * h.val = h.val; omega

/-- Entry (n, d, h) of the decoder block at point `t` is the decoder argument at (2t + n, d, h). -/
theorem dec_block (c : Dev nD) (t : Fin cfg0.N) (n : Fin 2) (d : Fin 512) (h : Fin 256) (b : Fin 64)
    (hb : b.val = 2 * t.val + n.val) :
    (iblk m c 1 t : Vec Ideal S2x512x256 .f32) (ix3 n d h)
      = (m ((c : Thread nD τ).loc main_arg1) : S64x512x256.Idx → EReal) (ix3 b d h) := by
  obtain ⟨-, -, -, e0, e1, e2, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 3) * 2 + 1 * n.val = b.val; omega
  | ⟨1, _⟩ => show win0_1.index t (1 : Fin 3) * 512 + 1 * d.val = d.val; omega
  | ⟨2, _⟩ => show win0_1.index t (2 : Fin 3) * 256 + 1 * h.val = h.val; omega

/-- Entry (n, 0, e) of the mask block at point `t` is the mask argument at (2t + n, e). -/
theorem mask_block (c : Dev nD) (t : Fin cfg0.N) (n : Fin 2) (e : Fin 512) (b : Fin 64)
    (hb : b.val = 2 * t.val + n.val) :
    (iblk m c 2 t : Vec Ideal S2x1x512 .f32) (ix3 n (0 : Fin 1) e)
      = (m ((c : Thread nD τ).loc main_arg2) : S64x512.Idx → EReal) (ix2 b e) := by
  obtain ⟨-, -, -, -, -, -, e0, e1, e2, -⟩ := idx_facts t
  unfold iblk
  rw [View.read_apply]
  show V m c main_v0 _ = m (c.tc.loc main_arg2) _
  rw [V_mask]
  refine Eq.trans ?_ (shapeCast_ac_a1c_apply (m ((c : Thread nD τ).loc main_arg2) : S64x512.Idx → EReal)
    shapeCasts_S64x512_S64x1x512 b (0 : Fin 1) e)
  congr 1
  funext a
  apply Fin.ext
  match a with
  | ⟨0, _⟩ => show win0_2.index t (0 : Fin 3) * 2 + 1 * n.val = b.val; omega
  | ⟨1, _⟩ => show win0_2.index t (1 : Fin 3) * 1 + 1 * 0 = 0; omega
  | ⟨2, _⟩ => show win0_2.index t (2 : Fin 3) * 512 + 1 * e.val = e.val; omega

/-- The projection block is the projection argument, at every point. -/
theorem wa_block (c : Dev nD) (t : Fin cfg0.N) (h g : Fin 256) :
    (iblk m c 3 t : Vec Ideal S256x256 .bf16) (ix2 h g)
      = (m ((c : Thread nD τ).loc main_arg3) : S256x256.Idx → EReal) (ix2 h g) := by
  obtain ⟨-, -, -, -, -, -, -, -, -, e0, e1, -⟩ := idx_facts t
  unfold iblk
  rw [View.read_apply]
  show V m c main_v1 _ = m (c.tc.loc main_arg3) _
  rw [V_wa]
  show (m ((c : Thread nD τ).loc main_arg3) : S256x256.Idx → EReal) _ = _
  congr 1
  funext a
  apply Fin.ext
  match a with
  | ⟨0, _⟩ => show win0_3.index t (0 : Fin 2) * 256 + 1 * h.val = h.val; omega
  | ⟨1, _⟩ => show win0_3.index t (1 : Fin 2) * 256 + 1 * g.val = g.val; omega

/-! ## What a point writes back -/

/-- Point `t` writes back block `t` of the attention function of the four argument arrays: its entry (n, d, j) is
    row `d` of batch element `2t + n`, and the point's input blocks are that batch element's rows of the arguments. -/
theorem flushed_eq (c : Dev nD) (t : Fin cfg0.N) :
    (dats m 0 c).flushed 4 t = ((cfg0.win 4).blk t).view.read (Elt Ideal)
      (Cert.Attention.result (m ((c : Thread nD τ).loc main_arg0)) (m ((c : Thread nD τ).loc main_arg1))
        (m ((c : Thread nD τ).loc main_arg2)) (m ((c : Thread nD τ).loc main_arg3))) := by
  rw [flushed4]
  funext y
  obtain ⟨n, d, j, rfl⟩ : ∃ (n : Fin 2) (d j : Fin 512), y = ix3 n d j := ⟨y 0, y 1, y 2, eq_ix3 y⟩
  have hN : cfg0.N = 32 := N_0
  have hb : 2 * t.val + n.val < 64 := by have := t.isLt; have := n.isLt; omega
  obtain ⟨-, -, -, -, -, -, -, -, -, -, -, e0, e1, e2⟩ := idx_facts t
  have hemb : ((cfg0.win 4).blk t).view.emb (ix3 n d j) = ix3 (⟨2 * t.val + n.val, hb⟩ : Fin 64) d j :=
    funext fun a => Fin.ext (by
      match a with
      | ⟨0, _⟩ => show win0_4.index t (0 : Fin 3) * 2 + 1 * n.val = 2 * t.val + n.val; omega
      | ⟨1, _⟩ => show win0_4.index t (1 : Fin 3) * 512 + 1 * d.val = d.val; omega
      | ⟨2, _⟩ => show win0_4.index t (2 : Fin 3) * 512 + 1 * j.val = j.val; omega)
  show out0_4 (iblk m c 0 t) (iblk m c 1 t) (iblk m c 2 t) (iblk m c 3 t) (ix3 n d j)
    = Cert.Attention.result _ _ _ _ (((cfg0.win 4).blk t).view.emb (ix3 n d j))
  rw [hemb, Cert.Attention.result_ix3]
  refine (out_apply (iblk m c 0 t) (iblk m c 1 t) (iblk m c 2 t) (iblk m c 3 t) n d j).trans ?_
  unfold Cert.Attention.resultAt
  have h0 : (fun (e : Fin 512) (h : Fin 256) => (iblk m c 0 t : Vec Ideal S2x512x256 .f32) (ix3 n e h))
      = fun e h => (m ((c : Thread nD τ).loc main_arg0) : S64x512x256.Idx → EReal) (ix3 (⟨2 * t.val + n.val, hb⟩ : Fin 64) e h) :=
    funext fun e => funext fun h => enc_block m c t n e h _ rfl
  have h1 : (fun (d' : Fin 512) (h : Fin 256) => (iblk m c 1 t : Vec Ideal S2x512x256 .f32) (ix3 n d' h))
      = fun d' h => (m ((c : Thread nD τ).loc main_arg1) : S64x512x256.Idx → EReal) (ix3 (⟨2 * t.val + n.val, hb⟩ : Fin 64) d' h) :=
    funext fun d' => funext fun h => dec_block m c t n d' h _ rfl
  have h2 : (fun (e : Fin 512) => (iblk m c 2 t : Vec Ideal S2x1x512 .f32) (ix3 n (0 : Fin 1) e))
      = fun e => (m ((c : Thread nD τ).loc main_arg2) : S64x512.Idx → EReal) (ix2 (⟨2 * t.val + n.val, hb⟩ : Fin 64) e) :=
    funext fun e => mask_block m c t n e _ rfl
  have h3 : (fun (h g : Fin 256) => (iblk m c 3 t : Vec Ideal S256x256 .bf16) (ix2 h g))
      = fun h g => (m ((c : Thread nD τ).loc main_arg3) : S256x256.Idx → EReal) (ix2 h g) :=
    funext fun h => funext fun g => wa_block m c t h g
  rw [h0, h1, h2, h3]

end Cert.KernelIdeal.Hand

end
-- ==== Proof.KernelCover.lean ====
/-
  Which grid point writes which part of the kernel's output array.

  The output array, f32[64, 512, 512], is written back in 32 blocks of shape [2, 512, 512]: at grid point t the
  output window holds the block with block index (t, 0, 0), that is batch elements 2t and 2t + 1 with every position
  and every column. An index (b, d, j) therefore lies in the block of point b / 2, and since every point writes its
  block back, every index of the array is covered.
-/
import proofs.«154393_j47854525612133_2_alg».proof.Proof.Gen.KernelIdeal.Value
import Idealize.ShloMosaic.Lib.Pipeline.Value

noncomputable section

namespace Cert.KernelIdeal.Hand

open Cert.KernelIdeal Cert.KernelIdeal.Gen Idealize.ShloMosaic Idealize.ShloMosaic.TcCoe Idealize.SL.Sem

/-- The output window's block index at grid point t is (t, 0, 0): decided over the 32 points. -/
theorem out_index : ∀ t : Fin cfg0.N, win0_4.index t (0 : Fin 3) = t.val ∧ win0_4.index t (1 : Fin 3) = 0
    ∧ win0_4.index t (2 : Fin 3) = 0 :=
  (by decide +kernel : ∀ t : Fin grid0.N, _)

/-- An index of the array is in point t's block iff, on each axis, its coordinate lies in the block's range: from
    the block index times the block's extent, for the length of that extent. -/
theorem mem_blk (t : Fin cfg0.N) (i : S64x512x512.Idx) :
    i ∈ ((cfg0.win 4).blk t).view.set ↔ ∀ a : Fin 3, win0_4.index t a * S2x512x512.size a ≤ (i a).val
      ∧ (i a).val < win0_4.index t a * S2x512x512.size a + S2x512x512.size a := by
  show i ∈ ((View.whole main_v2).slice (win0_4.rect t)).set ↔ _
  rw [View.set_slice_whole, Rect.mem_set_unit]
  exact Iff.rfl

/-- Every index (b, d, j) of the array is in the block of a point that writes back: the point b / 2, whose block
    holds batch elements 2 (b / 2) and 2 (b / 2) + 1 and the whole of the two other axes. -/
theorem cover (i : S64x512x512.Idx) :
    ∃ t : Fin cfg0.N, (cfg0.win 4).flush t = true ∧ i ∈ ((cfg0.win 4).blk t).view.set := by
  have hi0 : (i 0).val < 64 := (i 0).isLt
  have hi1 : (i 1).val < 512 := (i 1).isLt
  have hi2 : (i 2).val < 512 := (i 2).isLt
  have hN : cfg0.N = 32 := N_0
  obtain ⟨t, ht⟩ : ∃ t : Fin cfg0.N, t.val = (i 0).val / 2 := ⟨⟨(i 0).val / 2, by omega⟩, rfl⟩
  obtain ⟨e0, e1, e2⟩ := out_index t
  refine ⟨t, flush0_4 t, ?_⟩
  rw [mem_blk]
  intro a
  match a with
  | ⟨0, _⟩ =>
    show win0_4.index t (0 : Fin 3) * 2 ≤ (i 0).val ∧ (i 0).val < win0_4.index t (0 : Fin 3) * 2 + 2
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 512 ≤ (i 2).val ∧ (i 2).val < win0_4.index t (2 : Fin 3) * 512 + 512
    omega

end Cert.KernelIdeal.Hand

end
-- ==== Proof.KernelRun.lean ====
/-
  The kernel's run, read: the result array ends holding the attention function of the four argument arrays.
  Every grid point writes back its block of that function, and the 32 blocks cover the array.
-/
import proofs.«154393_j47854525612133_2_alg».proof.Proof.KernelArray
import proofs.«154393_j47854525612133_2_alg».proof.Proof.KernelCover

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ) (ρ : Dev nD → PrngReg)

/-- The result array after the last grid point. -/
theorem final (c : Dev nD) : (dats m 0 c).arrAt 4 cfg0.N
    = Cert.Attention.result (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- Every weakly fair execution of the kernel's program terminates with the result array at the attention function
    of the arguments and the arguments unchanged. -/
theorem run : θ_run defs (onTc (τ := τ) (main (F := Ideal))) ⟨m, fun _ => 0, ρ⟩ fun r => ∀ c : Dev nD,
      r.2.mem ((c : Thread nD τ).loc main_v2)
        = Cert.Attention.result (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Hand

end
-- ==== Proof.lean ====
/-
  The kernel computes, for each of 64 batch elements, dot-product attention of 512 decoder positions over 512
  encoder positions with a learned projection: the scores are the decoder states against the projected encoder
  states, the weights their exponentials times a mask, each row of weights is divided by its sum, and the
  context vectors (the weighted sums of the encoder states) are written beside the decoder states. The reference
  computes the same function with whole-array operations. Over the extended reals the two agree entry by entry:
  every sum is the same sum (the kernel forms it per pair of batch elements, the reference for all at once), and
  the only difference in the arithmetic is the order of the two factors in the products of a score, which
  commutativity of multiplication removes; no step needs the inputs finite.

  AttentionSpec states the common function; ReferenceValue reads the reference's operations as that function;
  KernelPayload reads the kernel body's arithmetic at an index, KernelArray and KernelCover carry it from the
  grid points' blocks to the whole array, and KernelRun states the kernel's run. The three frames are the
  generated ones (the reference's is its run with the result dropped); no rewrite was applied in idealizing the
  kernel, so that conjunct is trivial.
-/
import proofs.«154393_j47854525612133_2_alg».proof.Defs
import proofs.«154393_j47854525612133_2_alg».proof.Proof.Gen.Kernel
import proofs.«154393_j47854525612133_2_alg».proof.Proof.Gen.Kernel.Skeleton
import proofs.«154393_j47854525612133_2_alg».proof.Proof.Gen.Kernel.Launch
import proofs.«154393_j47854525612133_2_alg».proof.Proof.Gen.Kernel.Points
import proofs.«154393_j47854525612133_2_alg».proof.Proof.Gen.Kernel.Frame
import proofs.«154393_j47854525612133_2_alg».proof.Proof.Gen.KernelIdeal
import proofs.«154393_j47854525612133_2_alg».proof.Proof.Gen.KernelIdeal.Skeleton
import proofs.«154393_j47854525612133_2_alg».proof.Proof.Gen.KernelIdeal.Launch
import proofs.«154393_j47854525612133_2_alg».proof.Proof.Gen.KernelIdeal.Points
import proofs.«154393_j47854525612133_2_alg».proof.Proof.Gen.KernelIdeal.Frame
import proofs.«154393_j47854525612133_2_alg».proof.Proof.Gen.ReferenceIdeal
import proofs.«154393_j47854525612133_2_alg».proof.Proof.Gen.Pre_finite_inputs
import proofs.«154393_j47854525612133_2_alg».proof.Proof.Gen.KernelIdeal.Value
import proofs.«154393_j47854525612133_2_alg».proof.Proof.Gen.ReferenceIdeal.Run
import proofs.«154393_j47854525612133_2_alg».proof.Proof.Gen.ReferenceIdeal.Read
import proofs.«154393_j47854525612133_2_alg».proof.Proof.ReferenceValue
import proofs.«154393_j47854525612133_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the result array at the attention function of their arguments, and the arguments agree. -/
theorem algebraic : Cert.algebraic_KernelIdeal_ReferenceIdeal := by
  intro m ρ m' ρ' _ hagree
  refine ⟨fun c => Cert.Attention.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
